-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x128 .f32) (main_arg15 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : FVec F S800000x128 .f32) (main_arg2 : IVec S800000 32) (main_arg3 : IVec S800000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S5000x128 : Shape := ⟨2, ![5000, 128]⟩
abbrev S1x128 : Shape := ⟨2, ![1, 128]⟩
abbrev S_ : Shape := ⟨0, ![]⟩
abbrev S800000x1 : Shape := ⟨2, ![800000, 1]⟩

abbrev nBuf : Space → Nat
  | .hbm => 34
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S50000x128, .f32⟩
  | .hbm, ⟨17, _⟩ => ⟨S800000x128, .f32⟩
  | .hbm, ⟨18, _⟩ => ⟨S800000x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S800000x128, .f32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1_0 : Ref sig .tc := ⟨.hbm, 17, rfl⟩
abbrev main_v1_1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg10_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev cc1_sem10_0 : DmaSem sig := 20
abbrev cc1_sem10_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S800000x128.size a
  hwx1_0 : ∀ i : grid1.Coords, EltTy.bits .f32 = 32 ∨ (Rect.block (s := S800000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S800000x128.size a
  hwx1_9 : ∀ i : grid1.Coords, EltTy.bits .f32 = 32 ∨ (Rect.block (s := S800000x128) S5000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S800000x128.size a
  hwx1_10 : ∀ i : grid1.Coords, EltTy.bits .f32 = 32 ∨ (Rect.block (s := S800000x128) S5000x128.size (cc1_transform_10 i) (hinb1_10 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg15) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v1_0) S5000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v1_1) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩
abbrev S1x128 : Shape := ⟨2, ![1, 128]⟩
abbrev S800000x1 : Shape := ⟨2, ![800000, 1]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S_, .f32⟩
  | .hbm, ⟨17, _⟩ => ⟨S_, .f32⟩
  | .hbm, ⟨18, _⟩ => ⟨S50000x128, .f32⟩
  | .hbm, ⟨19, _⟩ => ⟨S50000x128, .i1⟩
  | .hbm, ⟨20, _⟩ => ⟨S_, .f32⟩
  | .hbm, ⟨21, _⟩ => ⟨S50000x128, .f32⟩
  | .hbm, ⟨22, _⟩ => ⟨S50000x128, .f32⟩
  | .hbm, ⟨23, _⟩ => ⟨S50000x128, .f32⟩
  | .hbm, ⟨24, _⟩ => ⟨S128x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S_, .f32⟩
  | .hbm, ⟨30, _⟩ => ⟨S_, .f32⟩
  | .hbm, ⟨31, _⟩ => ⟨S50000x128, .f32⟩
  | .hbm, ⟨32, _⟩ => ⟨S50000x128, .i1⟩
  | .hbm, ⟨33, _⟩ => ⟨S_, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S800000x128, .f32⟩
  | .hbm, ⟨44, _⟩ => ⟨S1x128, .f32⟩
  | .hbm, ⟨45, _⟩ => ⟨S800000x128, .f32⟩
  | .hbm, ⟨46, _⟩ => ⟨S800000x128, .f32⟩
  | .hbm, ⟨47, _⟩ => ⟨S_, .f32⟩
  | .hbm, ⟨48, _⟩ => ⟨S800000x128, .f32⟩
  | .hbm, ⟨49, _⟩ => ⟨S800000x128, .f32⟩
  | .hbm, ⟨50, _⟩ => ⟨S128x128, .f32⟩
  | .hbm, ⟨51, _⟩ => ⟨S800000x128, .f32⟩
  | .hbm, ⟨52, _⟩ => ⟨S1x128, .f32⟩
  | .hbm, ⟨53, _⟩ => ⟨S800000x128, .f32⟩
  | .hbm, ⟨54, _⟩ => ⟨S800000x128, .f32⟩
  | .hbm, ⟨55, _⟩ => ⟨S128x128, .f32⟩
  | .hbm, ⟨56, _⟩ => ⟨S800000x128, .f32⟩
  | .hbm, ⟨57, _⟩ => ⟨S1x128, .f32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S800000x128, .f32⟩
  | .hbm, ⟨62, _⟩ => ⟨S_, .f32⟩
  | .hbm, ⟨63, _⟩ => ⟨S800000x128, .f32⟩
  | .hbm, ⟨64, _⟩ => ⟨S800000x128, .f32⟩
  | .hbm, ⟨65, _⟩ => ⟨S_, .f32⟩
  | .hbm, ⟨66, _⟩ => ⟨S800000x128, .f32⟩
  | .hbm, ⟨67, _⟩ => ⟨S800000x128, .f32⟩
  | .hbm, ⟨68, _⟩ => ⟨S128x128, .f32⟩
  | .hbm, ⟨69, _⟩ => ⟨S800000x128, .f32⟩
  | .hbm, ⟨70, _⟩ => ⟨S1x128, .f32⟩
  | .hbm, ⟨71, _⟩ => ⟨S800000x128, .f32⟩
  | .hbm, ⟨72, _⟩ => ⟨S800000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S800000x128, .f32⟩
  | .hbm, ⟨83, _⟩ => ⟨S800000x128, .f32⟩
  | .hbm, ⟨84, _⟩ => ⟨S_, .f32⟩
  | .hbm, ⟨85, _⟩ => ⟨S50000x128, .f32⟩
  | .hbm, ⟨86, _⟩ => ⟨S800000x1, .i32⟩
  | .hbm, ⟨87, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst_0 : Ref sig .tc := ⟨.hbm, 29, rfl⟩
abbrev main_call1_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_call2_cst : Ref sig .tc := ⟨.hbm, 47, rfl⟩
abbrev main_call2_v0 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_1 : Ref sig .tc := ⟨.hbm, 62, rfl⟩
abbrev main_v30 : Ref sig .tc := ⟨.hbm, 63, rfl⟩
abbrev main_v31 : Ref sig .tc := ⟨.hbm, 64, rfl⟩
abbrev main_cst_2 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c : Ref sig .tc := ⟨.hbm, 73, rfl⟩
abbrev main_v39 : Ref sig .tc := ⟨.hbm, 74, rfl⟩
abbrev main_v40 : Ref sig .tc := ⟨.hbm, 75, rfl⟩
abbrev main_c_3 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_4 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KerRun.lean ====
/-
  The idealized kernel program's run with its result named. The program is two pipelined regions followed by a
  stretch of host operations: a negative source index is wrapped once by the number of nodes, the pooled node rows
  are gathered at the source indices, multiplied by the gate, shifted, and accumulated into the target rows of a
  zero array. `tail` is that stretch as one function of the three arrays the regions leave and the two index
  arrays; `run_values` says the result buffer ends at the last boundary's contents and the arguments as launched;
  `W3_out` reads the last boundary's contents at the result buffer as `tail` of the contents at region 1's exit;
  the remaining lemmas read those contents back to what the regions' pipelines leave and to the launch memory.
-/
import proofs.«163483_j52123723105092_1_alg».proof.Proof.Gen.KernelIdeal.Frame
import Idealize.ShloMosaic.Lib.StableHlo.Run

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The host stretch as one function: of the pooled node features `vpv`, the gate `sc`, the shift `sh` and the two
    index arrays — gather the source rows (a negative index wrapped once by the number of nodes), gate and shift
    them, and accumulate each edge's message into its target row of a zero array. -/
def tail (vpv : FVec F S50000x128 .f32) (sc sh : FVec F S800000x128 .f32) (src dst : IVec S800000 32) :
    FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (addf (mulf sc (Host.gather gather_S50000x128_S800000x1_S800000x128_1_0_n_n_0_1_1128 vpv
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))) sh)

variable (m : (ℓ : Loc nD τ sig) → Buf (Elt F) ℓ) (ρ : Dev nD → PrngReg)

set_option backward.isDefEq.respectTransparency.types false in
/-- At the compiled mesh, from any memory with zero counters, every weakly fair execution of @main on the
    TensorCores terminates, nothing faulting, and in every final state the result buffer holds the last boundary's
    contents `W3` and every argument array what it held at launch. -/
theorem run_values : θ_run defs (onTc (τ := τ) (main (F := F))) ⟨m, fun _ => 0, ρ⟩ (fun r => ∀ c : Dev nD,
      r.2.mem ((c.tc : Thread nD τ).loc main_v13) = W3 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v13 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c),
       (h c _ (mem_uc main_arg14 (by decide))).trans (W3_main_arg14 m ρ c),
       (h c _ (mem_uc main_arg15 (by decide))).trans (W3_main_arg15 m ρ c)⟩)

/-- The last boundary's contents at the result buffer: the host stretch's function of what region 1's exit holds at
    the pooled features, the gate, the shift and the two index arrays. -/
theorem W3_out (c : Dev nD) : W3 m ρ c (Proc.devRef .tc main_v13)
    = tail (W2 m ρ c (Proc.devRef .tc main_v0)) (W2 m ρ c (Proc.devRef .tc main_v1_0))
        (W2 m ρ c (Proc.devRef .tc main_v1_1)) (W2 m ρ c (Proc.devRef .tc main_arg2))
        (W2 m ρ c (Proc.devRef .tc main_arg3)) := by
  show StableHlo.after hostOps2 _ (Proc.devRef .tc main_v13) = _
  after_results
  rfl

/-- Region 0's output is no array of region 1: at region 1's exit it holds what region 0's pipeline leaves. -/
theorem W2_v0 (c : Dev nD) : W2 m ρ c (Proc.devRef .tc main_v0) = (dat0 (V0 m ρ) c).arrAt 5 cfg0.N :=
  (W2_of_ne m ρ c main_v0 (by decide)).trans (W1_arr m ρ c 5)
/-- Region 1's first output at its exit: what its pipeline leaves. -/
theorem W2_v1_0 (c : Dev nD) : W2 m ρ c (Proc.devRef .tc main_v1_0) = (dat1 (V1 m ρ) c).arrAt 9 cfg1.N :=
  W2_arr m ρ c 9
/-- Region 1's second output at its exit: what its pipeline leaves. -/
theorem W2_v1_1 (c : Dev nD) : W2 m ρ c (Proc.devRef .tc main_v1_1) = (dat1 (V1 m ρ) c).arrAt 10 cfg1.N :=
  W2_arr m ρ c 10
/-- Neither region touches the source indices. -/
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl
/-- Neither region touches the target indices. -/
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl

/-! Region 1's input arrays as region 1 finds them are the launch contents: region 0 writes none of them. -/

theorem V1_arg1 (c : Dev nD) : V1 m ρ c main_arg1 = m ((c : Thread nD τ).loc main_arg1) :=
  (W1_of_ne m ρ c main_arg1 (by decide)).trans rfl
theorem V1_arg8 (c : Dev nD) : V1 m ρ c main_arg8 = m ((c : Thread nD τ).loc main_arg8) :=
  (W1_of_ne m ρ c main_arg8 (by decide)).trans rfl
theorem V1_arg9 (c : Dev nD) : V1 m ρ c main_arg9 = m ((c : Thread nD τ).loc main_arg9) :=
  (W1_of_ne m ρ c main_arg9 (by decide)).trans rfl
theorem V1_arg10 (c : Dev nD) : V1 m ρ c main_arg10 = m ((c : Thread nD τ).loc main_arg10) :=
  (W1_of_ne m ρ c main_arg10 (by decide)).trans rfl
theorem V1_arg11 (c : Dev nD) : V1 m ρ c main_arg11 = m ((c : Thread nD τ).loc main_arg11) :=
  (W1_of_ne m ρ c main_arg11 (by decide)).trans rfl
theorem V1_arg12 (c : Dev nD) : V1 m ρ c main_arg12 = m ((c : Thread nD τ).loc main_arg12) :=
  (W1_of_ne m ρ c main_arg12 (by decide)).trans rfl
theorem V1_arg13 (c : Dev nD) : V1 m ρ c main_arg13 = m ((c : Thread nD τ).loc main_arg13) :=
  (W1_of_ne m ρ c main_arg13 (by decide)).trans rfl
theorem V1_arg14 (c : Dev nD) : V1 m ρ c main_arg14 = m ((c : Thread nD τ).loc main_arg14) :=
  (W1_of_ne m ρ c main_arg14 (by decide)).trans rfl
theorem V1_arg15 (c : Dev nD) : V1 m ρ c main_arg15 = m ((c : Thread nD τ).loc main_arg15) :=
  (W1_of_ne m ρ c main_arg15 (by decide)).trans rfl

end Cert.KernelIdeal.KerRun

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.RowMath.lean ====
/-
  One row of the two networks, over the extended reals, and the array operations of both programs read at an
  entry. A linear layer sends a row `x` (128 entries) to `j ↦ (Σ_k x k * W (j, k)) + b j`: the weight is stored
  [out, in], so entry `j` contracts `x` against ROW `j` of `W`. The node network is leaky ReLU, layer, leaky ReLU,
  layer; the edge network is layer, ReLU, layer, followed by the gate `1 / (1 + exp (-·))` of one more layer and by
  another layer (the shift). Each of these is a function of ONE row of the input array and of the weights: that is
  why a program may compute it block of rows by block of rows.
  The two programs spell a layer differently — a matrix unit's product of the operands rounded to a narrower format
  (the rounding is the identity on extended reals) accumulated into a zero array, with the bias cast to one row and
  repeated, against a contraction of the operands as they are, with the bias broadcast twice — and at an entry both are
  the row formula (`kernel_layer_apply`, `host_layer_apply`). No law of arithmetic is used beyond `0 + x = x`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import proofs.«163483_j52123723105092_1_alg».proof.Proof.LibMatProd

noncomputable section

namespace Cert.RowMath

open Idealize.ShloMosaic Idealize.ShloMosaic.ValueIdx Cert.Gcn.Dense

/-- A [rows, 128] array, a [128, 128] weight, a [128] bias, of extended reals. -/
abbrev Mat (M : Nat) : Type := (⟨2, ![M, 128]⟩ : Shape).Idx → EReal
abbrev Wt : Type := (⟨2, ![128, 128]⟩ : Shape).Idx → EReal
abbrev Bias : Type := (⟨1, ![128]⟩ : Shape).Idx → EReal

/-- Entry `j` of `x · Wᵀ + b` for one row `x`. -/
def lin (x : Fin 128 → EReal) (W : Wt) (b : Bias) (j : Fin 128) : EReal :=
  (∑ k : Fin 128, x k * W (ix2 j k)) + b (ix1 j)

/-- Leaky ReLU of one entry: `a` where `a ≥ 0`, the slope (the word 0x3E4CCCCD) times `a` elsewhere. -/
def lrelu (a : EReal) : EReal :=
  Scalar.select (FloatOps.cmpf (F := Ideal) (φ := .f32) .oge a (Ideal.ofBits .f32 0x00000000#32)) a
    (Ideal.ofBits .f32 0x3E4CCCCD#32 * a)

/-- ReLU of one entry. -/
def relu (a : EReal) : EReal := max a (Ideal.ofBits .f32 0x00000000#32)

/-- One row of the pooled node features. -/
def vpRow (v : Fin 128 → EReal) (W1 : Wt) (b1 : Bias) (W2 : Wt) (b2 : Bias) (j : Fin 128) : EReal :=
  lin (fun k => lrelu (lin (fun k' => lrelu (v k')) W1 b1 k)) W2 b2 j

/-- One row of the edge network's hidden features. -/
def hidRow (e : Fin 128 → EReal) (W1 : Wt) (b1 : Bias) (W2 : Wt) (b2 : Bias) (k : Fin 128) : EReal :=
  lin (fun k' => relu (lin e W1 b1 k')) W2 b2 k

/-- One row of the gate and of the shift. -/
def scaleRow (e : Fin 128 → EReal) (W1 : Wt) (b1 : Bias) (W2 : Wt) (b2 : Bias) (WB : Wt) (bB : Bias) (j : Fin 128) : EReal :=
  Ideal.logistic (lin (hidRow e W1 b1 W2 b2) WB bB j)
def shiftRow (e : Fin 128 → EReal) (W1 : Wt) (b1 : Bias) (W2 : Wt) (b2 : Bias) (WC : Wt) (bC : Bias) (j : Fin 128) : EReal :=
  lin (hidRow e W1 b1 W2 b2) WC bC j

/-- The three arrays, row by row. -/
def vpArr {M : Nat} (V : Mat M) (W1 : Wt) (b1 : Bias) (W2 : Wt) (b2 : Bias) : Mat M :=
  fun i => vpRow (fun k => V (ix2 (i 0) k)) W1 b1 W2 b2 (i 1)
def scaleArr {M : Nat} (E : Mat M) (W1 : Wt) (b1 : Bias) (W2 : Wt) (b2 : Bias) (WB : Wt) (bB : Bias) : Mat M :=
  fun i => scaleRow (fun k => E (ix2 (i 0) k)) W1 b1 W2 b2 WB bB (i 1)
def shiftArr {M : Nat} (E : Mat M) (W1 : Wt) (b1 : Bias) (W2 : Wt) (b2 : Bias) (WC : Wt) (bC : Bias) : Mat M :=
  fun i => shiftRow (fun k => E (ix2 (i 0) k)) W1 b1 W2 b2 WC bC (i 1)

/-- A [128] array broadcast to the one row of a [1,128] array reads, at `(u, j)`, the operand at `j`. -/
theorem bias_row_apply (hb : (⟨1, ![128]⟩ : Shape).BroadcastsInDim ⟨2, ![1, 128]⟩ ![1]) (b : Bias) (u : Fin 1) (j : Fin 128) :
    broadcastInDim ⟨2, ![1, 128]⟩ ![1] hb b (ix2 u j) = b (ix1 j) := by
  refine broadcastInDim_apply ![1] hb b (ix2 u j) (ix1 j) fun a => ?_
  match a with
  | ⟨0, _⟩ =>
    show j.val = if (128 : ℕ) = 1 then 0 else j.val
    rw [if_neg (by decide)]

section Layers

variable {M : Nat} (D : DotDims ⟨2, ![M, 128]⟩ ⟨2, ![128, 128]⟩ ⟨2, ![M, 128]⟩)
  (hr : D.contr.rank = 1) (hs : D.contr.size ⟨0, by omega⟩ = 128)
  (hl0 : ∀ (i : (⟨2, ![M, 128]⟩ : Shape).Idx) (q : D.contr.Idx), (D.lhsIdx i q 0).val = (i 0).val)
  (hl1 : ∀ (i : (⟨2, ![M, 128]⟩ : Shape).Idx) (q : D.contr.Idx), (D.lhsIdx i q 1).val = (q ⟨0, by omega⟩).val)
  (hr0 : ∀ (i : (⟨2, ![M, 128]⟩ : Shape).Idx) (q : D.contr.Idx), (D.rhsIdx i q 0).val = (q ⟨0, by omega⟩).val)
  (hr1 : ∀ (i : (⟨2, ![M, 128]⟩ : Shape).Idx) (q : D.contr.Idx), (D.rhsIdx i q 1).val = (i 1).val)

include hr hs hl0 hl1 hr0 hr1

/-- The contraction of a row of `x` with the transposed weight: `Σ_k x (p, k) * W (j, k)`. -/
theorem contr_transposed (x : Mat M) (W : Wt) (ht : (⟨2, ![128, 128]⟩ : Shape).Transposes [1, 0] ⟨2, ![128, 128]⟩)
    (p : Fin M) (j : Fin 128) :
    ∑ k : D.contr.Idx, x (D.lhsIdx (ix2 p j) k) * transpose ⟨2, ![128, 128]⟩ [1, 0] W ht (D.rhsIdx (ix2 p j) k)
      = ∑ k : Fin 128, x (ix2 p k) * W (ix2 j k) := by
  refine (sum_contr_eq_prod D hr hs hl0 hl1 hr0 hr1 x _ (ix2 p j)).trans ?_
  unfold prod
  refine Finset.sum_congr rfl fun k _ => ?_
  show x (ix2 p k) * transpose ⟨2, ![128, 128]⟩ [1, 0] W ht (ix2 k j) = x (ix2 p k) * W (ix2 j k)
  rw [transpose_ix2_apply]

/-- A layer as the kernel spells it, at entry `(p, j)`; the left operand in whatever format it arrives (a change of
    format is the identity here), the weight narrowed and transposed. -/
theorem kernel_layer_apply {φ₁ : FTy} (x : FVec Ideal ⟨2, ![M, 128]⟩ φ₁) (W : FVec Ideal ⟨2, ![128, 128]⟩ .f32)
    (b : FVec Ideal ⟨1, ![128]⟩ .f32) (h2 : FTy.bf16.bits < FTy.f32.bits)
    (ht : (⟨2, ![128, 128]⟩ : Shape).Transposes [1, 0] ⟨2, ![128, 128]⟩)
    (hc : (⟨1, ![128]⟩ : Shape).ShapeCasts ⟨2, ![1, 128]⟩) (hb : (⟨2, ![1, 128]⟩ : Shape).Broadcasts ⟨2, ![M, 128]⟩)
    (p : Fin M) (j : Fin 128) :
    addf (matmul D none x (transpose ⟨2, ![128, 128]⟩ [1, 0] (truncf .bf16 W h2) ht)
        (constant ⟨2, ![M, 128]⟩ .f32 0x00000000#32))
      (broadcastTo ⟨2, ![M, 128]⟩ (shapeCast ⟨2, ![1, 128]⟩ b hc) hb) (ix2 p j)
      = lin (fun k => x (ix2 p k)) W b j := by
  show matmul D none _ _ _ (ix2 p j) + broadcastTo ⟨2, ![M, 128]⟩ (shapeCast ⟨2, ![1, 128]⟩ b hc) hb (ix2 p j) = _
  rw [broadcastTo_1b_ab_apply, shapeCast_a_1a_apply]
  unfold lin
  refine congrArg (· + b (ix1 j)) ?_
  refine (Ideal.matmul_constant_zero_apply D none _ _ (ix2 p j)).trans ?_
  exact contr_transposed D hr hs hl0 hl1 hr0 hr1 x W ht p j

/-- A layer as the reference spells it, at entry `(r, j)`. -/
theorem host_layer_apply (x : FVec Ideal ⟨2, ![M, 128]⟩ .f32) (W : FVec Ideal ⟨2, ![128, 128]⟩ .f32)
    (b : FVec Ideal ⟨1, ![128]⟩ .f32)
    (ht : (⟨2, ![128, 128]⟩ : Shape).Transposes [1, 0] ⟨2, ![128, 128]⟩)
    (hb1 : (⟨1, ![128]⟩ : Shape).BroadcastsInDim ⟨2, ![1, 128]⟩ ![1])
    (hb2 : (⟨2, ![1, 128]⟩ : Shape).BroadcastsInDim ⟨2, ![M, 128]⟩ ![0, 1])
    (r : Fin M) (j : Fin 128) :
    addf (Host.dotGeneral D none x (transpose ⟨2, ![128, 128]⟩ [1, 0] W ht))
      (broadcastInDim ⟨2, ![M, 128]⟩ ![0, 1] hb2 (broadcastInDim ⟨2, ![1, 128]⟩ ![1] hb1 b)) (ix2 r j)
      = lin (fun k => x (ix2 r k)) W b j := by
  show Host.dotGeneral D none x _ (ix2 r j)
      + broadcastInDim ⟨2, ![M, 128]⟩ ![0, 1] hb2 (broadcastInDim ⟨2, ![1, 128]⟩ ![1] hb1 b) (ix2 r j) = _
  rw [broadcastInDim_oneRow_apply, bias_row_apply]
  unfold lin
  refine congrArg (· + b (ix1 j)) ?_
  simp only [Host.dotGeneral]
  refine (Ideal.dotGeneral_apply D none _ x _ (ix2 r j)).trans ?_
  exact contr_transposed D hr hs hl0 hl1 hr0 hr1 x W ht r j

end Layers

/-! ## The pointwise operations of both programs at an entry -/

section Pointwise

variable {s : Shape}

/-- The kernel's leaky ReLU (a comparison with the zero splat selecting between `x` and the slope splat times `x`). -/
theorem lrelu_kernel_apply (x : FVec Ideal s .f32) (i : s.Idx) :
    select (cmpf .oge x (broadcast s (Scalar.ofBits (F := Ideal) .f32 0x00000000#32))) x
      (mulf (broadcast s (Scalar.ofBits (F := Ideal) .f32 0x3E4CCCCD#32)) x) i = lrelu (x i) := rfl

/-- The reference's leaky ReLU (the same with the two scalars broadcast from rank-0 arrays). -/
theorem lrelu_host_apply (hb : (⟨0, ![]⟩ : Shape).BroadcastsInDim s ![]) (x : FVec Ideal s .f32) (i : s.Idx) :
    select (cmpf .oge x (broadcastInDim s ![] hb (constant (F := Ideal) ⟨0, ![]⟩ .f32 0x00000000#32))) x
      (mulf (broadcastInDim s ![] hb (id (constant (F := Ideal) ⟨0, ![]⟩ .f32 0x3E4CCCCD#32))) x) i = lrelu (x i) := rfl

/-- The kernel's and the reference's ReLU. -/
theorem relu_kernel_apply (x : FVec Ideal s .f32) (i : s.Idx) :
    maximumf x (broadcast s (Scalar.ofBits (F := Ideal) .f32 0x00000000#32)) i = relu (x i) := rfl
theorem relu_host_apply (hb : (⟨0, ![]⟩ : Shape).BroadcastsInDim s ![]) (x : FVec Ideal s .f32) (i : s.Idx) :
    maximumf x (broadcastInDim s ![] hb (constant (F := Ideal) ⟨0, ![]⟩ .f32 0x00000000#32)) i = relu (x i) := rfl

/-- The kernel's gate is the logistic function by name. -/
theorem gate_kernel_apply (x : FVec Ideal s .f32) (i : s.Idx) : logistic x i = Ideal.logistic (x i) := rfl

/-- The reference's gate `1 / (1 + exp (-x))`, with the word 0x3F800000 for each `1`, is the logistic function, which
    on the extended reals is that expression by definition. -/
theorem gate_host_apply (hb : (⟨0, ![]⟩ : Shape).BroadcastsInDim s ![]) (x : FVec Ideal s .f32) (i : s.Idx) :
    Host.divf (broadcastInDim s ![] hb (constant (F := Ideal) ⟨0, ![]⟩ .f32 0x3F800000#32))
      (addf (broadcastInDim s ![] hb (constant (F := Ideal) ⟨0, ![]⟩ .f32 0x3F800000#32)) (Host.exp (Host.negf x))) i
      = Ideal.logistic (x i) := by
  show Ideal.div (Ideal.ofBits .f32 0x3F800000#32) (Ideal.ofBits .f32 0x3F800000#32 + Ideal.exp (-(x i))) = _
  rw [Ideal.ofBits_one_f32]
  rfl

end Pointwise

end Cert.RowMath

end
-- ==== Proof.KernelPay.lean ====
/-
  The kernel bodies' stored values at an entry. The node kernel stores, at row `p` and column `j` of its block, entry
  `j` of the pooled features of row `p` of the block of `V` it loaded; the edge kernel stores the gate and the shift of
  row `p` of its block of `E`. Each is read by peeling the layers from the outside: a layer at `(p, j)` is the row
  formula of its input at row `p`, and the pointwise operations act entry by entry.
-/
import proofs.«163483_j52123723105092_1_alg».proof.Proof.Gen.KernelIdeal.Skeleton
import proofs.«163483_j52123723105092_1_alg».proof.Proof.RowMath

noncomputable section

namespace Cert.KernelIdeal.Pay

open Cert.KernelIdeal Cert.KernelIdeal.Gen Idealize.ShloMosaic Idealize.ShloMosaic.ValueIdx Cert.RowMath

/-- A layer of either kernel at entry `(p, j)` of a 5000-row block: the matrix unit's record contracts the left
    operand's second axis against the right operand's first. -/
theorem layer {φ₁ : FTy} (x : FVec Ideal S5000x128 φ₁) (W : FVec Ideal S128x128 .f32) (b : FVec Ideal S128 .f32)
    (p : Fin 5000) (j : Fin 128) :
    addf (matmul dot_S5000x128_S128x128_S5000x128_1_0_0_1_n_n none x
        (transpose S128x128 [1, 0] (truncf .bf16 W bitsLt_bf16_f32) transposes_S128x128_p1_0_S128x128)
        (constant S5000x128 .f32 0x00000000#32))
      (broadcastTo S5000x128 (shapeCast S1x128 b shapeCasts_S128_S1x128) broadcasts_S1x128_S5000x128) (ix2 p j)
      = lin (fun k => x (ix2 p k)) W b j :=
  kernel_layer_apply dot_S5000x128_S128x128_S5000x128_1_0_0_1_n_n rfl rfl (fun _ _ => rfl) (fun _ _ => rfl)
    (fun _ _ => rfl) (fun _ _ => rfl) x W b _ _ _ _ p j

/-- The node kernel's stored value at `(p, j)`. -/
theorem pay_vp (v0 : Vec Ideal S5000x128 .f32) (v7 : Vec Ideal S128x128 .f32) (v11 : Vec Ideal S128 .f32)
    (v21 : Vec Ideal S128x128 .f32) (v25 : Vec Ideal S128 .f32) (p : Fin 5000) (j : Fin 128) :
    k0_pay1 (F := Ideal) v0 v7 v11 v21 v25 (ix2 p j) = vpRow (fun k => v0 (ix2 p k)) v7 v11 v21 v25 j := by
  refine (layer _ v21 v25 p j).trans ?_
  unfold vpRow
  refine congrArg (fun f => lin f v21 v25 j) (funext fun k => ?_)
  refine (lrelu_kernel_apply _ (ix2 p k)).trans (congrArg lrelu ?_)
  refine (layer _ v7 v11 p k).trans ?_
  refine congrArg (fun f => lin f v7 v11 k) (funext fun k' => ?_)
  exact lrelu_kernel_apply v0 (ix2 p k')

/-- The edge kernel's hidden features (what both of its stored values are computed from) at `(p, k)`. -/
theorem pay_hid (v0 : Vec Ideal S5000x128 .f32) (v2 : Vec Ideal S128x128 .f32) (v6 : Vec Ideal S128 .f32)
    (v13 : Vec Ideal S128x128 .f32) (v17 : Vec Ideal S128 .f32) (p : Fin 5000) (k : Fin 128) :
    k1_pay1 (F := Ideal) v0 v2 v6 v13 v17 (ix2 p k) = hidRow (fun k' => v0 (ix2 p k')) v2 v6 v13 v17 k := by
  refine (layer _ v13 v17 p k).trans ?_
  unfold hidRow
  refine congrArg (fun f => lin f v13 v17 k) (funext fun k' => ?_)
  refine (relu_kernel_apply _ (ix2 p k')).trans (congrArg relu ?_)
  exact layer v0 v2 v6 p k'

/-- The edge kernel's gate at `(p, j)`. -/
theorem pay_scale (v0 : Vec Ideal S5000x128 .f32) (v2 : Vec Ideal S128x128 .f32) (v6 : Vec Ideal S128 .f32)
    (v13 : Vec Ideal S128x128 .f32) (v17 : Vec Ideal S128 .f32) (v22 : Vec Ideal S128x128 .f32) (v26 : Vec Ideal S128 .f32)
    (p : Fin 5000) (j : Fin 128) :
    k1_pay2 (F := Ideal) v0 v2 v6 v13 v17 v22 v26 (ix2 p j)
      = scaleRow (fun k => v0 (ix2 p k)) v2 v6 v13 v17 v22 v26 j := by
  refine (gate_kernel_apply _ (ix2 p j)).trans (congrArg Ideal.logistic ?_)
  refine (layer _ v22 v26 p j).trans ?_
  refine congrArg (fun f => lin f v22 v26 j) (funext fun k => ?_)
  exact pay_hid v0 v2 v6 v13 v17 p k

/-- The edge kernel's shift at `(p, j)`. -/
theorem pay_shift (v0 : Vec Ideal S5000x128 .f32) (v2 : Vec Ideal S128x128 .f32) (v6 : Vec Ideal S128 .f32)
    (v13 : Vec Ideal S128x128 .f32) (v17 : Vec Ideal S128 .f32) (v31 : Vec Ideal S128x128 .f32) (v35 : Vec Ideal S128 .f32)
    (p : Fin 5000) (j : Fin 128) :
    k1_pay3 (F := Ideal) v0 v2 v6 v13 v17 v31 v35 (ix2 p j)
      = shiftRow (fun k => v0 (ix2 p k)) v2 v6 v13 v17 v31 v35 j := by
  refine (layer _ v31 v35 p j).trans ?_
  refine congrArg (fun f => lin f v31 v35 j) (funext fun k => ?_)
  exact pay_hid v0 v2 v6 v13 v17 p k

end Cert.KernelIdeal.Pay

end
-- ==== Proof.NodeArr.lean ====
/-
  The node kernel's output array after its ten grid points. Point `t` loads rows `5000 t … 5000 t + 4999` of `V` and
  the four weight arrays whole, and writes back a block whose entry `(p, j)` is entry `j` of the pooled features of
  row `5000 t + p` of `V`. The ten blocks tile the fifty thousand rows (row `r` lies in block `r / 5000`), so the array
  ends holding the pooled features of every row.
-/
import proofs.«163483_j52123723105092_1_alg».proof.Proof.Gen.KernelIdeal.Frame
import proofs.«163483_j52123723105092_1_alg».proof.Proof.KernelPay
import Idealize.ShloMosaic.Lib.Pipeline.Value

set_option maxRecDepth 16384

noncomputable section

namespace Cert.KernelIdeal.NodeArr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.RowMath

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block indices of the six windows at point `t`: the rows window and the output move with the point, the
    weights stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of point `t`'s block is row `5000 t + p` of the array. -/
def row (t : Fin cfg0.N) (p : Fin 5000) : Fin 50000 :=
  ⟨5000 * t.val + p.val, by have := t.isLt; have := p.isLt; have : cfg0.N = 10 := N_0; omega⟩

/-- Entry `(p, k)` of the block of `V` at point `t`. -/
theorem blk_rows (c : Dev nD) (t : Fin cfg0.N) (p : Fin 5000) (k : Fin 128) :
    (iblk0 V c 0 t : S5000x128.Idx → EReal) (ix2 p k) = (V c main_arg0 : S50000x128.Idx → EReal) (ix2 (row t p) k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * p.val = 5000 * t.val + p.val; rw [e0]; omega
  | ⟨1, _⟩ => show win0_0.index t 1 * 128 + 1 * k.val = k.val; rw [e1]; omega

/-- The window over `main_arg4` is the whole array at every point. -/
theorem blk_w1 (c : Dev nD) (t : Fin cfg0.N) : (iblk0 V c 1 t : S128x128.Idx → EReal) = V c main_arg4 := by
  obtain ⟨-, -, h0, h1, -⟩ := idx_facts t
  funext y
  unfold iblk0
  rw [View.read_apply]
  show V c main_arg4 _ = V c main_arg4 y
  congr 1
  funext a
  apply Fin.ext
  match a with
  | ⟨0, _⟩ => show win0_1.index t 0 * 128 + 1 * (y 0).val = (y 0).val; rw [h0]; omega
  | ⟨1, _⟩ => show win0_1.index t 1 * 128 + 1 * (y 1).val = (y 1).val; rw [h1]; omega

/-- The window over `main_arg5` is the whole array at every point. -/
theorem blk_b1 (c : Dev nD) (t : Fin cfg0.N) : (iblk0 V c 2 t : S128.Idx → EReal) = V c main_arg5 := by
  obtain ⟨-, -, -, -, h0, -⟩ := idx_facts t
  funext y
  unfold iblk0
  rw [View.read_apply]
  show V c main_arg5 _ = V c main_arg5 y
  congr 1
  funext a
  apply Fin.ext
  match a with
  | ⟨0, _⟩ => show win0_2.index t 0 * 128 + 1 * (y 0).val = (y 0).val; rw [h0]; omega

/-- The window over `main_arg6` is the whole array at every point. -/
theorem blk_w2 (c : Dev nD) (t : Fin cfg0.N) : (iblk0 V c 3 t : S128x128.Idx → EReal) = V c main_arg6 := by
  obtain ⟨-, -, -, -, -, h0, h1, -⟩ := idx_facts t
  funext y
  unfold iblk0
  rw [View.read_apply]
  show V c main_arg6 _ = V c main_arg6 y
  congr 1
  funext a
  apply Fin.ext
  match a with
  | ⟨0, _⟩ => show win0_3.index t 0 * 128 + 1 * (y 0).val = (y 0).val; rw [h0]; omega
  | ⟨1, _⟩ => show win0_3.index t 1 * 128 + 1 * (y 1).val = (y 1).val; rw [h1]; omega

/-- The window over `main_arg7` is the whole array at every point. -/
theorem blk_b2 (c : Dev nD) (t : Fin cfg0.N) : (iblk0 V c 4 t : S128.Idx → EReal) = V c main_arg7 := by
  obtain ⟨-, -, -, -, -, -, -, h0, -⟩ := idx_facts t
  funext y
  unfold iblk0
  rw [View.read_apply]
  show V c main_arg7 _ = V c main_arg7 y
  congr 1
  funext a
  apply Fin.ext
  match a with
  | ⟨0, _⟩ => show win0_4.index t 0 * 128 + 1 * (y 0).val = (y 0).val; rw [h0]; omega

/-- Entry `(p, j)` of point `t`'s output block sits at `(5000 t + p, j)` of the array. -/
theorem out_emb (t : Fin cfg0.N) (p : Fin 5000) (j : Fin 128) :
    ((cfg0.win 5).blk t).view.emb (ix2 p j : S5000x128.Idx) = (ix2 (row t p) j : S50000x128.Idx) := by
  obtain ⟨-, -, -, -, -, -, -, -, e0, e1⟩ := idx_facts t
  funext a
  apply Fin.ext
  match a with
  | ⟨0, _⟩ => show win0_5.index t 0 * 5000 + 1 * p.val = 5000 * t.val + p.val; rw [e0]; omega
  | ⟨1, _⟩ => show win0_5.index t 1 * 128 + 1 * j.val = j.val; rw [e1]; omega

/-- What point `t` writes back is block `t` of the pooled features of `V` as the region finds the arrays. -/
theorem flushed_vp (c : Dev nD) (t : Fin cfg0.N) :
    (dat0 V c).flushed 5 t = ((cfg0.win 5).blk t).view.read (Elt Ideal)
      (vpArr (V c main_arg0) (V c main_arg4) (V c main_arg5) (V c main_arg6) (V c main_arg7)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  refine funext fun (y : S5000x128.Idx) => ?_
  obtain ⟨p, j, rfl⟩ : ∃ (p : Fin 5000) (j : Fin 128), y = ix2 p j := ⟨y 0, y 1, eq_ix2 y⟩
  rw [View.read_apply, out_emb]
  show k0_pay1 (iblk0 V c 0 t) (iblk0 V c 1 t) (iblk0 V c 2 t) (iblk0 V c 3 t) (iblk0 V c 4 t) (ix2 p j)
    = vpRow (fun k => V c main_arg0 (ix2 (row t p) k)) (V c main_arg4) (V c main_arg5) (V c main_arg6) (V c main_arg7) j
  refine (Cert.KernelIdeal.Pay.pay_vp _ _ _ _ _ p j).trans ?_
  rw [blk_w1, blk_b1, blk_w2, blk_b2]
  exact congrArg (fun f => vpRow f (V c main_arg4) (V c main_arg5) (V c main_arg6) (V c main_arg7) j)
    (funext fun k => blk_rows V c t p k)

/-- An index of the array lies in point `t`'s block iff each coordinate lies in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v0).slice (win0_5.rect t)).set ↔ _
  rw [View.set_slice_whole, Rect.mem_set_unit]
  exact Iff.rfl

/-- Every index of the array is in some point's block: row `r` in block `r / 5000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, -, -, -, -, e0, e1⟩ := idx_facts t
  refine ⟨t, flush0_5 t, ?_⟩
  rw [mem_blk]
  intro a
  match a with
  | ⟨0, _⟩ =>
    show win0_5.index t 0 * 5000 ≤ (i 0).val ∧ (i 0).val < win0_5.index t 0 * 5000 + 5000
    rw [e0]; omega
  | ⟨1, _⟩ =>
    show win0_5.index t 1 * 128 ≤ (i 1).val ∧ (i 1).val < win0_5.index t 1 * 128 + 128
    rw [e1]; omega

/-- The output array after the region: the pooled features of every row of `V`. -/
theorem final_vp (c : Dev nD) :
    (dat0 V c).arrAt 5 cfg0.N
      = vpArr (V c main_arg0) (V c main_arg4) (V c main_arg5) (V c main_arg6) (V c main_arg7) :=
  (dat0 V c).arrAt_eq_of_cover 5 _ (fun t _ => flushed_vp V c t) cover

end Cert.KernelIdeal.NodeArr

end
-- ==== Proof.EdgeArr.lean ====
/-
  The edge kernel's two output arrays after its 160 grid points. Point `t` loads rows `5000 t … 5000 t + 4999` of `E`
  and the eight weight arrays whole, and writes back two blocks: entry `(p, j)` of the first is the gate, of the
  second the shift, of row `5000 t + p` of `E`. The 160 blocks of each output tile its 800000 rows (row `r` lies in
  block `r / 5000`), so the arrays end holding the gate and the shift of every row.
-/
import proofs.«163483_j52123723105092_1_alg».proof.Proof.Gen.KernelIdeal.Frame
import proofs.«163483_j52123723105092_1_alg».proof.Proof.KernelPay
import Idealize.ShloMosaic.Lib.Pipeline.Value

set_option maxRecDepth 16384

noncomputable section

namespace Cert.KernelIdeal.EdgeArr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.RowMath

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block indices of the eleven windows at point `t`: the rows window and the two outputs move with the point, the
    weights stay at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

/-- Row `p` of point `t`'s block is row `5000 t + p` of the array. -/
def row (t : Fin cfg1.N) (p : Fin 5000) : Fin 800000 :=
  ⟨5000 * t.val + p.val, by have := t.isLt; have := p.isLt; have : cfg1.N = 160 := N_1; omega⟩

/-- Entry `(p, k)` of the block of `E` at point `t`. -/
theorem blk_rows (c : Dev nD) (t : Fin cfg1.N) (p : Fin 5000) (k : Fin 128) :
    (iblk1 V c 0 t : S5000x128.Idx → EReal) (ix2 p k) = (V c main_arg1 : S800000x128.Idx → EReal) (ix2 (row t p) k) := by
  obtain ⟨e0, e1, -⟩ := idx_facts t
  unfold iblk1
  rw [View.read_apply]
  show V c main_arg1 _ = V c main_arg1 _
  congr 1
  funext a
  apply Fin.ext
  match a with
  | ⟨0, _⟩ => show win1_0.index t 0 * 5000 + 1 * p.val = 5000 * t.val + p.val; rw [e0]; omega
  | ⟨1, _⟩ => show win1_0.index t 1 * 128 + 1 * k.val = k.val; rw [e1]; omega

/-- The window over `main_arg8` is the whole array at every point. -/
theorem blk_1 (c : Dev nD) (t : Fin cfg1.N) : (iblk1 V c 1 t : S128x128.Idx → EReal) = V c main_arg8 := by
  obtain ⟨-, -, h0, h1, -⟩ := idx_facts t
  funext y
  unfold iblk1
  rw [View.read_apply]
  show V c main_arg8 _ = V c main_arg8 y
  congr 1
  funext a
  apply Fin.ext
  match a with
  | ⟨0, _⟩ => show win1_1.index t 0 * 128 + 1 * (y 0).val = (y 0).val; rw [h0]; omega
  | ⟨1, _⟩ => show win1_1.index t 1 * 128 + 1 * (y 1).val = (y 1).val; rw [h1]; omega

/-- The window over `main_arg9` is the whole array at every point. -/
theorem blk_2 (c : Dev nD) (t : Fin cfg1.N) : (iblk1 V c 2 t : S128.Idx → EReal) = V c main_arg9 := by
  obtain ⟨-, -, -, -, h0, -⟩ := idx_facts t
  funext y
  unfold iblk1
  rw [View.read_apply]
  show V c main_arg9 _ = V c main_arg9 y
  congr 1
  funext a
  apply Fin.ext
  match a with
  | ⟨0, _⟩ => show win1_2.index t 0 * 128 + 1 * (y 0).val = (y 0).val; rw [h0]; omega

/-- The window over `main_arg10` is the whole array at every point. -/
theorem blk_3 (c : Dev nD) (t : Fin cfg1.N) : (iblk1 V c 3 t : S128x128.Idx → EReal) = V c main_arg10 := by
  obtain ⟨-, -, -, -, -, h0, h1, -⟩ := idx_facts t
  funext y
  unfold iblk1
  rw [View.read_apply]
  show V c main_arg10 _ = V c main_arg10 y
  congr 1
  funext a
  apply Fin.ext
  match a with
  | ⟨0, _⟩ => show win1_3.index t 0 * 128 + 1 * (y 0).val = (y 0).val; rw [h0]; omega
  | ⟨1, _⟩ => show win1_3.index t 1 * 128 + 1 * (y 1).val = (y 1).val; rw [h1]; omega

/-- The window over `main_arg11` is the whole array at every point. -/
theorem blk_4 (c : Dev nD) (t : Fin cfg1.N) : (iblk1 V c 4 t : S128.Idx → EReal) = V c main_arg11 := by
  obtain ⟨-, -, -, -, -, -, -, h0, -⟩ := idx_facts t
  funext y
  unfold iblk1
  rw [View.read_apply]
  show V c main_arg11 _ = V c main_arg11 y
  congr 1
  funext a
  apply Fin.ext
  match a with
  | ⟨0, _⟩ => show win1_4.index t 0 * 128 + 1 * (y 0).val = (y 0).val; rw [h0]; omega

/-- The window over `main_arg12` is the whole array at every point. -/
theorem blk_5 (c : Dev nD) (t : Fin cfg1.N) : (iblk1 V c 5 t : S128x128.Idx → EReal) = V c main_arg12 := by
  obtain ⟨-, -, -, -, -, -, -, -, h0, h1, -⟩ := idx_facts t
  funext y
  unfold iblk1
  rw [View.read_apply]
  show V c main_arg12 _ = V c main_arg12 y
  congr 1
  funext a
  apply Fin.ext
  match a with
  | ⟨0, _⟩ => show win1_5.index t 0 * 128 + 1 * (y 0).val = (y 0).val; rw [h0]; omega
  | ⟨1, _⟩ => show win1_5.index t 1 * 128 + 1 * (y 1).val = (y 1).val; rw [h1]; omega

/-- The window over `main_arg13` is the whole array at every point. -/
theorem blk_6 (c : Dev nD) (t : Fin cfg1.N) : (iblk1 V c 6 t : S128.Idx → EReal) = V c main_arg13 := by
  obtain ⟨-, -, -, -, -, -, -, -, -, -, h0, -⟩ := idx_facts t
  funext y
  unfold iblk1
  rw [View.read_apply]
  show V c main_arg13 _ = V c main_arg13 y
  congr 1
  funext a
  apply Fin.ext
  match a with
  | ⟨0, _⟩ => show win1_6.index t 0 * 128 + 1 * (y 0).val = (y 0).val; rw [h0]; omega

/-- The window over `main_arg14` is the whole array at every point. -/
theorem blk_7 (c : Dev nD) (t : Fin cfg1.N) : (iblk1 V c 7 t : S128x128.Idx → EReal) = V c main_arg14 := by
  obtain ⟨-, -, -, -, -, -, -, -, -, -, -, h0, h1, -⟩ := idx_facts t
  funext y
  unfold iblk1
  rw [View.read_apply]
  show V c main_arg14 _ = V c main_arg14 y
  congr 1
  funext a
  apply Fin.ext
  match a with
  | ⟨0, _⟩ => show win1_7.index t 0 * 128 + 1 * (y 0).val = (y 0).val; rw [h0]; omega
  | ⟨1, _⟩ => show win1_7.index t 1 * 128 + 1 * (y 1).val = (y 1).val; rw [h1]; omega

/-- The window over `main_arg15` is the whole array at every point. -/
theorem blk_8 (c : Dev nD) (t : Fin cfg1.N) : (iblk1 V c 8 t : S128.Idx → EReal) = V c main_arg15 := by
  obtain ⟨-, -, -, -, -, -, -, -, -, -, -, -, -, h0, -⟩ := idx_facts t
  funext y
  unfold iblk1
  rw [View.read_apply]
  show V c main_arg15 _ = V c main_arg15 y
  congr 1
  funext a
  apply Fin.ext
  match a with
  | ⟨0, _⟩ => show win1_8.index t 0 * 128 + 1 * (y 0).val = (y 0).val; rw [h0]; omega

/-- Entry `(p, j)` of point `t`'s block of output 9 sits at `(5000 t + p, j)` of its array. -/
theorem out_emb_9 (t : Fin cfg1.N) (p : Fin 5000) (j : Fin 128) :
    ((cfg1.win 9).blk t).view.emb (ix2 p j : S5000x128.Idx) = (ix2 (row t p) j : S800000x128.Idx) := by
  obtain ⟨-, -, -, -, -, -, -, -, -, -, -, -, -, -, e0, e1, -⟩ := idx_facts t
  funext a
  apply Fin.ext
  match a with
  | ⟨0, _⟩ => show win1_9.index t 0 * 5000 + 1 * p.val = 5000 * t.val + p.val; rw [e0]; omega
  | ⟨1, _⟩ => show win1_9.index t 1 * 128 + 1 * j.val = j.val; rw [e1]; omega

/-- What point `t` writes back to output 9 is block `t` of the gate of `E` as the region finds the arrays. -/
theorem flushed_9 (c : Dev nD) (t : Fin cfg1.N) :
    (dat1 V c).flushed 9 t = ((cfg1.win 9).blk t).view.read (Elt Ideal)
      (scaleArr (V c main_arg1) (V c main_arg8) (V c main_arg9) (V c main_arg10) (V c main_arg11) (V c main_arg12) (V c main_arg13)) := by
  show (cfg1.win 9).cut (grid1.coords t) ((dat1 V c).after 9 t) = _
  rw [after1_9]
  unfold out1_9
  rw [View.canon_unit_zero hz2]
  simp only [View.ld_unit_zero (S := S5000x128) hz2, View.ld_unit_zero (S := S128x128) hz2, View.ld_unit_zero (S := S128) hz1]
  refine funext fun (y : S5000x128.Idx) => ?_
  obtain ⟨p, j, rfl⟩ : ∃ (p : Fin 5000) (j : Fin 128), y = ix2 p j := ⟨y 0, y 1, eq_ix2 y⟩
  rw [View.read_apply, out_emb_9]
  show k1_pay2 (iblk1 V c 0 t) (iblk1 V c 1 t) (iblk1 V c 2 t) (iblk1 V c 3 t) (iblk1 V c 4 t) (iblk1 V c 5 t) (iblk1 V c 6 t) (ix2 p j)
    = scaleRow (fun k => V c main_arg1 (ix2 (row t p) k)) (V c main_arg8) (V c main_arg9) (V c main_arg10) (V c main_arg11) (V c main_arg12) (V c main_arg13) j
  refine (Cert.KernelIdeal.Pay.pay_scale _ _ _ _ _ _ _ p j).trans ?_
  rw [blk_1, blk_2, blk_3, blk_4, blk_5, blk_6]
  exact congrArg (fun f => scaleRow f (V c main_arg8) (V c main_arg9) (V c main_arg10) (V c main_arg11) (V c main_arg12) (V c main_arg13) j)
    (funext fun k => blk_rows V c t p k)

/-- An index of output 9's array lies in point `t`'s block iff each coordinate lies in the block's range. -/
theorem mem_blk_9 (t : Fin cfg1.N) (i : S800000x128.Idx) :
    i ∈ ((cfg1.win 9).blk t).view.set ↔ ∀ a : Fin 2, win1_9.index t a * S5000x128.size a ≤ (i a).val
      ∧ (i a).val < win1_9.index t a * S5000x128.size a + S5000x128.size a := by
  show i ∈ ((View.whole main_v1_0).slice (win1_9.rect t)).set ↔ _
  rw [View.set_slice_whole, Rect.mem_set_unit]
  exact Iff.rfl

/-- Every index of output 9's array is in some point's block: row `r` in block `r / 5000`. -/
theorem cover_9 (i : S800000x128.Idx) :
    ∃ t : Fin cfg1.N, (cfg1.win 9).flush t = true ∧ i ∈ ((cfg1.win 9).blk t).view.set := by
  have hi0 : (i 0).val < 800000 := (i 0).isLt
  have hi1 : (i 1).val < 128 := (i 1).isLt
  have hN : cfg1.N = 160 := N_1
  obtain ⟨t, ht⟩ : ∃ t : Fin cfg1.N, t.val = (i 0).val / 5000 := ⟨⟨(i 0).val / 5000, by omega⟩, rfl⟩
  obtain ⟨-, -, -, -, -, -, -, -, -, -, -, -, -, -, e0, e1, -⟩ := idx_facts t
  refine ⟨t, flush1_9 t, ?_⟩
  rw [mem_blk_9]
  intro a
  match a with
  | ⟨0, _⟩ =>
    show win1_9.index t 0 * 5000 ≤ (i 0).val ∧ (i 0).val < win1_9.index t 0 * 5000 + 5000
    rw [e0]; omega
  | ⟨1, _⟩ =>
    show win1_9.index t 1 * 128 ≤ (i 1).val ∧ (i 1).val < win1_9.index t 1 * 128 + 128
    rw [e1]; omega

/-- Output 9's array after the region: the gate of every row of `E`. -/
theorem final_9 (c : Dev nD) :
    (dat1 V c).arrAt 9 cfg1.N
      = scaleArr (V c main_arg1) (V c main_arg8) (V c main_arg9) (V c main_arg10) (V c main_arg11) (V c main_arg12) (V c main_arg13) :=
  (dat1 V c).arrAt_eq_of_cover 9 _ (fun t _ => flushed_9 V c t) cover_9

/-- Entry `(p, j)` of point `t`'s block of output 10 sits at `(5000 t + p, j)` of its array. -/
theorem out_emb_10 (t : Fin cfg1.N) (p : Fin 5000) (j : Fin 128) :
    ((cfg1.win 10).blk t).view.emb (ix2 p j : S5000x128.Idx) = (ix2 (row t p) j : S800000x128.Idx) := by
  obtain ⟨-, -, -, -, -, -, -, -, -, -, -, -, -, -, -, -, e0, e1⟩ := idx_facts t
  funext a
  apply Fin.ext
  match a with
  | ⟨0, _⟩ => show win1_10.index t 0 * 5000 + 1 * p.val = 5000 * t.val + p.val; rw [e0]; omega
  | ⟨1, _⟩ => show win1_10.index t 1 * 128 + 1 * j.val = j.val; rw [e1]; omega

/-- What point `t` writes back to output 10 is block `t` of the shift of `E` as the region finds the arrays. -/
theorem flushed_10 (c : Dev nD) (t : Fin cfg1.N) :
    (dat1 V c).flushed 10 t = ((cfg1.win 10).blk t).view.read (Elt Ideal)
      (shiftArr (V c main_arg1) (V c main_arg8) (V c main_arg9) (V c main_arg10) (V c main_arg11) (V c main_arg14) (V c main_arg15)) := by
  show (cfg1.win 10).cut (grid1.coords t) ((dat1 V c).after 10 t) = _
  rw [after1_10]
  unfold out1_10
  rw [View.canon_unit_zero hz2]
  simp only [View.ld_unit_zero (S := S5000x128) hz2, View.ld_unit_zero (S := S128x128) hz2, View.ld_unit_zero (S := S128) hz1]
  refine funext fun (y : S5000x128.Idx) => ?_
  obtain ⟨p, j, rfl⟩ : ∃ (p : Fin 5000) (j : Fin 128), y = ix2 p j := ⟨y 0, y 1, eq_ix2 y⟩
  rw [View.read_apply, out_emb_10]
  show k1_pay3 (iblk1 V c 0 t) (iblk1 V c 1 t) (iblk1 V c 2 t) (iblk1 V c 3 t) (iblk1 V c 4 t) (iblk1 V c 7 t) (iblk1 V c 8 t) (ix2 p j)
    = shiftRow (fun k => V c main_arg1 (ix2 (row t p) k)) (V c main_arg8) (V c main_arg9) (V c main_arg10) (V c main_arg11) (V c main_arg14) (V c main_arg15) j
  refine (Cert.KernelIdeal.Pay.pay_shift _ _ _ _ _ _ _ p j).trans ?_
  rw [blk_1, blk_2, blk_3, blk_4, blk_7, blk_8]
  exact congrArg (fun f => shiftRow f (V c main_arg8) (V c main_arg9) (V c main_arg10) (V c main_arg11) (V c main_arg14) (V c main_arg15) j)
    (funext fun k => blk_rows V c t p k)

/-- An index of output 10's array lies in point `t`'s block iff each coordinate lies in the block's range. -/
theorem mem_blk_10 (t : Fin cfg1.N) (i : S800000x128.Idx) :
    i ∈ ((cfg1.win 10).blk t).view.set ↔ ∀ a : Fin 2, win1_10.index t a * S5000x128.size a ≤ (i a).val
      ∧ (i a).val < win1_10.index t a * S5000x128.size a + S5000x128.size a := by
  show i ∈ ((View.whole main_v1_1).slice (win1_10.rect t)).set ↔ _
  rw [View.set_slice_whole, Rect.mem_set_unit]
  exact Iff.rfl

/-- Every index of output 10's array is in some point's block: row `r` in block `r / 5000`. -/
theorem cover_10 (i : S800000x128.Idx) :
    ∃ t : Fin cfg1.N, (cfg1.win 10).flush t = true ∧ i ∈ ((cfg1.win 10).blk t).view.set := by
  have hi0 : (i 0).val < 800000 := (i 0).isLt
  have hi1 : (i 1).val < 128 := (i 1).isLt
  have hN : cfg1.N = 160 := N_1
  obtain ⟨t, ht⟩ : ∃ t : Fin cfg1.N, t.val = (i 0).val / 5000 := ⟨⟨(i 0).val / 5000, by omega⟩, rfl⟩
  obtain ⟨-, -, -, -, -, -, -, -, -, -, -, -, -, -, -, -, e0, e1⟩ := idx_facts t
  refine ⟨t, flush1_10 t, ?_⟩
  rw [mem_blk_10]
  intro a
  match a with
  | ⟨0, _⟩ =>
    show win1_10.index t 0 * 5000 ≤ (i 0).val ∧ (i 0).val < win1_10.index t 0 * 5000 + 5000
    rw [e0]; omega
  | ⟨1, _⟩ =>
    show win1_10.index t 1 * 128 ≤ (i 1).val ∧ (i 1).val < win1_10.index t 1 * 128 + 128
    rw [e1]; omega

/-- Output 10's array after the region: the shift of every row of `E`. -/
theorem final_10 (c : Dev nD) :
    (dat1 V c).arrAt 10 cfg1.N
      = shiftArr (V c main_arg1) (V c main_arg8) (V c main_arg9) (V c main_arg10) (V c main_arg11) (V c main_arg14) (V c main_arg15) :=
  (dat1 V c).arrAt_eq_of_cover 10 _ (fun t _ => flushed_10 V c t) cover_10

end Cert.KernelIdeal.EdgeArr

end
-- ==== Proof.RefTerm.lean ====
/-
  The reference's result written as ONE term of its sixteen argument arrays, cut where the mathematics cuts it.
  A linear layer is `x · Wᵀ + b`: the contraction of a row of `x` with a row of `W` (the weight is stored
  [out, in], so the program transposes it first), plus the bias repeated down the rows. The node pooling is two
  such layers with a leaky ReLU (slope word 0x3E4CCCCD) in front of each; the edge network is a layer, a ReLU, a
  layer (giving `hid`), from which `scale = 1 / (1 + exp (-(hid · WBᵀ + bB)))` and `shift = hid · WCᵀ + bC`.
  The message of edge `e` is `scale e * vp (src e) + shift e` (a negative source index wrapped once by the number
  of nodes), and the result accumulates the messages of the edges landing on each node: `tail`.
-/
import proofs.«163483_j52123723105092_1_alg».proof.Proof.Gen.ReferenceIdeal

noncomputable section

namespace Cert.ReferenceIdeal.RefTerm

open Cert.ReferenceIdeal Cert.ReferenceIdeal.Gen Idealize.ShloMosaic

variable {F : FTy → Type} [FloatOps F]

/-- Leaky ReLU on a [50000,128] array: `x` where `x ≥ 0`, `slope * x` elsewhere. -/
def lrelu (x : FVec F S50000x128 .f32) : FVec F S50000x128 .f32 :=
  select (cmpf .oge x (broadcastInDim S50000x128 ![] bcast_S_S50000x128 (constant S_ .f32 0x00000000#32))) x
    (mulf (broadcastInDim S50000x128 ![] bcast_S_S50000x128 (id (constant S_ .f32 0x3E4CCCCD#32))) x)

/-- `x · Wᵀ + b` on the 50000 node rows. -/
def linN (x : FVec F S50000x128 .f32) (W : FVec F S128x128 .f32) (b : FVec F S128 .f32) : FVec F S50000x128 .f32 :=
  addf (Host.dotGeneral dot_S50000x128_S128x128_S50000x128_1_0_0_1_n_n none x
      (transpose S128x128 [1, 0] W transposes_S128x128_S128x128_1_0))
    (broadcastInDim S50000x128 ![0, 1] bcast_S1x128_S50000x128_0_1 (broadcastInDim S1x128 ![1] bcast_S128_S1x128_1 b))

/-- `x · Wᵀ + b` on the 800000 edge rows. -/
def linE (x : FVec F S800000x128 .f32) (W : FVec F S128x128 .f32) (b : FVec F S128 .f32) : FVec F S800000x128 .f32 :=
  addf (Host.dotGeneral dot_S800000x128_S128x128_S800000x128_1_0_0_1_n_n none x
      (transpose S128x128 [1, 0] W transposes_S128x128_S128x128_1_0))
    (broadcastInDim S800000x128 ![0, 1] bcast_S1x128_S800000x128_0_1 (broadcastInDim S1x128 ![1] bcast_S128_S1x128_1 b))

/-- The pooled node features: leaky ReLU, layer, leaky ReLU, layer. -/
def vp (V : FVec F S50000x128 .f32) (Wp1 : FVec F S128x128 .f32) (bp1 : FVec F S128 .f32)
    (Wp2 : FVec F S128x128 .f32) (bp2 : FVec F S128 .f32) : FVec F S50000x128 .f32 :=
  linN (lrelu (linN (lrelu V) Wp1 bp1)) Wp2 bp2

/-- The edge network's hidden features: layer, ReLU, layer. -/
def hid (E : FVec F S800000x128 .f32) (WA1 : FVec F S128x128 .f32) (bA1 : FVec F S128 .f32)
    (WA2 : FVec F S128x128 .f32) (bA2 : FVec F S128 .f32) : FVec F S800000x128 .f32 :=
  linE (maximumf (linE E WA1 bA1) (broadcastInDim S800000x128 ![] bcast_S_S800000x128 (constant S_ .f32 0x00000000#32))) WA2 bA2

/-- The gate: `1 / (1 + exp (-(x · WBᵀ + bB)))`, spelt as the reference spells it. -/
def scale (x : FVec F S800000x128 .f32) (WB : FVec F S128x128 .f32) (bB : FVec F S128 .f32) : FVec F S800000x128 .f32 :=
  Host.divf (broadcastInDim S800000x128 ![] bcast_S_S800000x128 (constant S_ .f32 0x3F800000#32))
    (addf (broadcastInDim S800000x128 ![] bcast_S_S800000x128 (constant S_ .f32 0x3F800000#32))
      (Host.exp (Host.negf (linE x WB bB))))

/-- What both programs do with the pooled features, the gate, the shift and the two index arrays: gather the source
    rows, gate and shift them, and accumulate each edge's message into its target row of a zero array. -/
def tail (vpv : FVec F S50000x128 .f32) (sc sh : FVec F S800000x128 .f32) (src dst : IVec S800000 32) :
    FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (addf (mulf sc (Host.gather gather_S50000x128_S800000x1_S800000x128_1_0_n_n_0_1_1128 vpv
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))) sh)

/-- The reference's result of its sixteen arguments. -/
def out (V : FVec F S50000x128 .f32) (E : FVec F S800000x128 .f32) (src dst : IVec S800000 32)
    (Wp1 : FVec F S128x128 .f32) (bp1 : FVec F S128 .f32) (Wp2 : FVec F S128x128 .f32) (bp2 : FVec F S128 .f32)
    (WA1 : FVec F S128x128 .f32) (bA1 : FVec F S128 .f32) (WA2 : FVec F S128x128 .f32) (bA2 : FVec F S128 .f32)
    (WB : FVec F S128x128 .f32) (bB : FVec F S128 .f32) (WC : FVec F S128x128 .f32) (bC : FVec F S128 .f32) :
    FVec F S50000x128 .f32 :=
  tail (vp V Wp1 bp1 Wp2 bp2) (scale (hid E WA1 bA1 WA2 bA2) WB bB) (linE (hid E WA1 bA1 WA2 bA2) WC bC) src dst

end Cert.ReferenceIdeal.RefTerm

end
-- ==== Proof.RefIdx.lean ====
/-
  The reference's three intermediate arrays, entry by entry: each is the row formula at its row. The reference's
  contractions run over the whole arrays (50000 node rows, 800000 edge rows); at entry `(r, j)` only row `r` of the
  input and row `j` of the weight are read, and the pointwise operations act entry by entry.
-/
import proofs.«163483_j52123723105092_1_alg».proof.Proof.RefTerm
import proofs.«163483_j52123723105092_1_alg».proof.Proof.RowMath

noncomputable section

namespace Cert.ReferenceIdeal.RefIdx

open Cert.ReferenceIdeal Cert.ReferenceIdeal.Gen Idealize.ShloMosaic Idealize.ShloMosaic.ValueIdx Cert.RowMath

/-- A layer over the node rows at entry `(r, j)`. -/
theorem linN_apply (x : FVec Ideal S50000x128 .f32) (W : FVec Ideal S128x128 .f32) (b : FVec Ideal S128 .f32)
    (r : Fin 50000) (j : Fin 128) : RefTerm.linN x W b (ix2 r j) = lin (fun k => x (ix2 r k)) W b j :=
  host_layer_apply dot_S50000x128_S128x128_S50000x128_1_0_0_1_n_n rfl rfl (fun _ _ => rfl) (fun _ _ => rfl)
    (fun _ _ => rfl) (fun _ _ => rfl) x W b _ _ _ r j

/-- A layer over the edge rows at entry `(e, j)`. -/
theorem linE_apply (x : FVec Ideal S800000x128 .f32) (W : FVec Ideal S128x128 .f32) (b : FVec Ideal S128 .f32)
    (e : Fin 800000) (j : Fin 128) : RefTerm.linE x W b (ix2 e j) = lin (fun k => x (ix2 e k)) W b j :=
  host_layer_apply dot_S800000x128_S128x128_S800000x128_1_0_0_1_n_n rfl rfl (fun _ _ => rfl) (fun _ _ => rfl)
    (fun _ _ => rfl) (fun _ _ => rfl) x W b _ _ _ e j

/-- The pooled node features are the row formula at every row. -/
theorem vp_eq (V : FVec Ideal S50000x128 .f32) (W1 : FVec Ideal S128x128 .f32) (b1 : FVec Ideal S128 .f32)
    (W2 : FVec Ideal S128x128 .f32) (b2 : FVec Ideal S128 .f32) :
    RefTerm.vp V W1 b1 W2 b2 = vpArr V W1 b1 W2 b2 := by
  funext i
  obtain ⟨r, j, rfl⟩ : ∃ (r : Fin 50000) (j : Fin 128), i = ix2 r j := ⟨i 0, i 1, eq_ix2 i⟩
  show RefTerm.linN (RefTerm.lrelu (RefTerm.linN (RefTerm.lrelu V) W1 b1)) W2 b2 (ix2 r j)
    = vpRow (fun k => V (ix2 r k)) W1 b1 W2 b2 j
  refine (linN_apply _ W2 b2 r j).trans ?_
  unfold vpRow
  refine congrArg (fun f => lin f W2 b2 j) (funext fun k => ?_)
  refine (lrelu_host_apply _ _ (ix2 r k)).trans (congrArg lrelu ?_)
  refine (linN_apply _ W1 b1 r k).trans ?_
  refine congrArg (fun f => lin f W1 b1 k) (funext fun k' => ?_)
  exact lrelu_host_apply _ V (ix2 r k')

/-- The edge network's hidden features at entry `(e, k)`. -/
theorem hid_apply (E : FVec Ideal S800000x128 .f32) (W1 : FVec Ideal S128x128 .f32) (b1 : FVec Ideal S128 .f32)
    (W2 : FVec Ideal S128x128 .f32) (b2 : FVec Ideal S128 .f32) (e : Fin 800000) (k : Fin 128) :
    RefTerm.hid E W1 b1 W2 b2 (ix2 e k) = hidRow (fun k' => E (ix2 e k')) W1 b1 W2 b2 k := by
  show RefTerm.linE (maximumf (RefTerm.linE E W1 b1) _) W2 b2 (ix2 e k) = _
  refine (linE_apply _ W2 b2 e k).trans ?_
  unfold hidRow
  refine congrArg (fun f => lin f W2 b2 k) (funext fun k' => ?_)
  refine (relu_host_apply _ _ (ix2 e k')).trans (congrArg relu ?_)
  exact linE_apply E W1 b1 e k'

/-- The gate is the row formula at every row. -/
theorem scale_eq (E : FVec Ideal S800000x128 .f32) (W1 : FVec Ideal S128x128 .f32) (b1 : FVec Ideal S128 .f32)
    (W2 : FVec Ideal S128x128 .f32) (b2 : FVec Ideal S128 .f32) (WB : FVec Ideal S128x128 .f32) (bB : FVec Ideal S128 .f32) :
    RefTerm.scale (RefTerm.hid E W1 b1 W2 b2) WB bB = scaleArr E W1 b1 W2 b2 WB bB := by
  funext i
  obtain ⟨e, j, rfl⟩ : ∃ (e : Fin 800000) (j : Fin 128), i = ix2 e j := ⟨i 0, i 1, eq_ix2 i⟩
  show RefTerm.scale (RefTerm.hid E W1 b1 W2 b2) WB bB (ix2 e j)
    = Ideal.logistic (lin (hidRow (fun k => E (ix2 e k)) W1 b1 W2 b2) WB bB j)
  refine (gate_host_apply _ _ (ix2 e j)).trans (congrArg Ideal.logistic ?_)
  refine (linE_apply _ WB bB e j).trans ?_
  refine congrArg (fun f => lin f WB bB j) (funext fun k => ?_)
  exact hid_apply E W1 b1 W2 b2 e k

/-- The shift is the row formula at every row. -/
theorem shift_eq (E : FVec Ideal S800000x128 .f32) (W1 : FVec Ideal S128x128 .f32) (b1 : FVec Ideal S128 .f32)
    (W2 : FVec Ideal S128x128 .f32) (b2 : FVec Ideal S128 .f32) (WC : FVec Ideal S128x128 .f32) (bC : FVec Ideal S128 .f32) :
    RefTerm.linE (RefTerm.hid E W1 b1 W2 b2) WC bC = shiftArr E W1 b1 W2 b2 WC bC := by
  funext i
  obtain ⟨e, j, rfl⟩ : ∃ (e : Fin 800000) (j : Fin 128), i = ix2 e j := ⟨i 0, i 1, eq_ix2 i⟩
  show RefTerm.linE (RefTerm.hid E W1 b1 W2 b2) WC bC (ix2 e j)
    = lin (hidRow (fun k => E (ix2 e k)) W1 b1 W2 b2) WC bC j
  refine (linE_apply _ WC bC e j).trans ?_
  refine congrArg (fun f => lin f WC bC j) (funext fun k => ?_)
  exact hid_apply E W1 b1 W2 b2 e k

end Cert.ReferenceIdeal.RefIdx

end
-- ==== Proof.Bridge.lean ====
/-
  Both programs compute one function of the sixteen arrays. `spec` is that function: the pooled features of every
  node row, the gate and the shift of every edge row (each row by the row formulas), handed to the shared last stretch
  (gather the source rows, gate, shift, accumulate into the target rows). The reference's composed term is `spec`
  because each of its three intermediate arrays is the row formula at every row; the kernel program's result is `spec`
  because each region's output array ends holding the row formula at every row — the regions' input arrays being, when
  each region is entered, what the program was launched with — and its last stretch is the reference's.
-/
import proofs.«163483_j52123723105092_1_alg».proof.Proof.KerRun
import proofs.«163483_j52123723105092_1_alg».proof.Proof.NodeArr
import proofs.«163483_j52123723105092_1_alg».proof.Proof.EdgeArr
import proofs.«163483_j52123723105092_1_alg».proof.Proof.RefIdx

noncomputable section

namespace Cert.Bridge

open Idealize.ShloMosaic Idealize.ShloMosaic.TcCoe Idealize.SL.Sem Cert.RowMath

/-- The result both programs compute, as one function of the sixteen argument arrays. -/
def spec (V : Mat 50000) (E : Mat 800000) (src dst : IVec ⟨1, ![800000]⟩ 32)
    (Wp1 : Wt) (bp1 : Bias) (Wp2 : Wt) (bp2 : Bias) (WA1 : Wt) (bA1 : Bias) (WA2 : Wt) (bA2 : Bias)
    (WB : Wt) (bB : Bias) (WC : Wt) (bC : Bias) : Mat 50000 :=
  Cert.ReferenceIdeal.RefTerm.tail (F := Ideal) (vpArr V Wp1 bp1 Wp2 bp2) (scaleArr E WA1 bA1 WA2 bA2 WB bB)
    (shiftArr E WA1 bA1 WA2 bA2 WC bC) src dst

/-- The reference's composed term is `spec`. -/
theorem ref_out (V : Mat 50000) (E : Mat 800000) (src dst : IVec ⟨1, ![800000]⟩ 32)
    (Wp1 : Wt) (bp1 : Bias) (Wp2 : Wt) (bp2 : Bias) (WA1 : Wt) (bA1 : Bias) (WA2 : Wt) (bA2 : Bias)
    (WB : Wt) (bB : Bias) (WC : Wt) (bC : Bias) :
    Cert.ReferenceIdeal.RefTerm.out (F := Ideal) V E src dst Wp1 bp1 Wp2 bp2 WA1 bA1 WA2 bA2 WB bB WC bC
      = spec V E src dst Wp1 bp1 Wp2 bp2 WA1 bA1 WA2 bA2 WB bB WC bC := by
  unfold Cert.ReferenceIdeal.RefTerm.out spec
  rw [Cert.ReferenceIdeal.RefIdx.vp_eq, Cert.ReferenceIdeal.RefIdx.scale_eq, Cert.ReferenceIdeal.RefIdx.shift_eq]

section Kernel

open Cert.KernelIdeal Cert.KernelIdeal.Gen

variable (m : (ℓ : Loc nD τ sig) → Buf (Elt Ideal) ℓ) (ρ : Dev nD → PrngReg)

/-- The kernel program's result buffer at the last boundary is `spec` of the launch contents of the arguments. -/
theorem kernel_out (c : Dev nD) :
    W3 m ρ c (Proc.devRef .tc main_v13) = spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [Cert.KernelIdeal.KerRun.W3_out, Cert.KernelIdeal.KerRun.W2_v0, Cert.KernelIdeal.KerRun.W2_v1_0,
    Cert.KernelIdeal.KerRun.W2_v1_1, Cert.KernelIdeal.KerRun.W2_arg2, Cert.KernelIdeal.KerRun.W2_arg3,
    Cert.KernelIdeal.NodeArr.final_vp, Cert.KernelIdeal.EdgeArr.final_9, Cert.KernelIdeal.EdgeArr.final_10,
    Cert.KernelIdeal.KerRun.V1_arg1, Cert.KernelIdeal.KerRun.V1_arg8, Cert.KernelIdeal.KerRun.V1_arg9,
    Cert.KernelIdeal.KerRun.V1_arg10, Cert.KernelIdeal.KerRun.V1_arg11, Cert.KernelIdeal.KerRun.V1_arg12,
    Cert.KernelIdeal.KerRun.V1_arg13, Cert.KernelIdeal.KerRun.V1_arg14, Cert.KernelIdeal.KerRun.V1_arg15]
  rfl

end Kernel

end Cert.Bridge

end
-- ==== Proof.RefRun.lean ====
/-
  The reference program's run. The program's entry function is a straight line of array operations, three of
  which are calls: the two leaky ReLUs of the node pooling (each itself calling the selection `where`) and the
  ReLU of the edge network. Substituting each callee's body at its call, over the buffers that call names, the
  whole program is ONE list of 72 operations; its run from any memory ends with every buffer at the fold of the
  operations' results over the launch contents. Read at the result buffer that fold is the composition of the
  operations, which is the term `RefTerm.out` of the sixteen arguments; read at an argument buffer it is the
  argument's launch contents, no operation writing an argument.
-/
import proofs.«163483_j52123723105092_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The entry function's operations in order, the calls replaced by their bodies: a leaky ReLU is seven operations
    (the zero and its broadcast, the comparison `x ≥ 0`, the slope converted to its own type and broadcast, the
    product `slope * x`, and the callee's selection between `x` and that product) into the buffers of its call;
    the ReLU is three (the zero, its broadcast, the maximum). -/
abbrev ops : List (HloOp τ sig (Elt F)) :=
  [ nullary main_cst (constant S_ .f32 0x3E4CCCCD#32),
    TRef.nullary main_call0.cst (constant S_ .f32 0x00000000#32),
    TRef.unary main_call0.cst main_call0.v0 (broadcastInDim S50000x128 ![] bcast_S_S50000x128),
    TRef.binary (TRef.of main_arg0 : TRef sig ⟨S50000x128, .f32⟩) main_call0.v0 main_call0.v1 (cmpf .oge),
    TRef.unary (TRef.of main_cst : TRef sig ⟨S_, .f32⟩) main_call0.v2 id,
    TRef.unary main_call0.v2 main_call0.v3 (broadcastInDim S50000x128 ![] bcast_S_S50000x128),
    TRef.binary main_call0.v3 (TRef.of main_arg0 : TRef sig ⟨S50000x128, .f32⟩) main_call0.v4 mulf,
    TRef.ternary main_call0.v1 (TRef.of main_arg0 : TRef sig ⟨S50000x128, .f32⟩) main_call0.v4 main_call0.call0.v0 select,
    unary main_arg4 main_v1 ((transpose S128x128 [1, 0] · transposes_S128x128_S128x128_1_0) : (⟨S128x128, .f32⟩ : BufTy).Contents (Elt F) → (⟨S128x128, .f32⟩ : BufTy).Contents (Elt F)),
    binary main_v0 main_v1 main_v2 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v3 (broadcastInDim S1x128 ![1] bcast_S128_S1x128_1 : (⟨S128, .f32⟩ : BufTy).Contents (Elt F) → (⟨S1x128, .f32⟩ : BufTy).Contents (Elt F)),
    unary main_v3 main_v4 (broadcastInDim S50000x128 ![0, 1] bcast_S1x128_S50000x128_0_1 : (⟨S1x128, .f32⟩ : BufTy).Contents (Elt F) → (⟨S50000x128, .f32⟩ : BufTy).Contents (Elt F)),
    binary main_v2 main_v4 main_v5 (addf : (⟨S50000x128, .f32⟩ : BufTy).Contents (Elt F) → (⟨S50000x128, .f32⟩ : BufTy).Contents (Elt F) → (⟨S50000x128, .f32⟩ : BufTy).Contents (Elt F)),
    nullary main_cst_0 (constant S_ .f32 0x3E4CCCCD#32),
    TRef.nullary main_call1.cst (constant S_ .f32 0x00000000#32),
    TRef.unary main_call1.cst main_call1.v0 (broadcastInDim S50000x128 ![] bcast_S_S50000x128),
    TRef.binary (TRef.of main_v5 : TRef sig ⟨S50000x128, .f32⟩) main_call1.v0 main_call1.v1 (cmpf .oge),
    TRef.unary (TRef.of main_cst_0 : TRef sig ⟨S_, .f32⟩) main_call1.v2 id,
    TRef.unary main_call1.v2 main_call1.v3 (broadcastInDim S50000x128 ![] bcast_S_S50000x128),
    TRef.binary main_call1.v3 (TRef.of main_v5 : TRef sig ⟨S50000x128, .f32⟩) main_call1.v4 mulf,
    TRef.ternary main_call1.v1 (TRef.of main_v5 : TRef sig ⟨S50000x128, .f32⟩) main_call1.v4 main_call1.call0.v0 select,
    unary main_arg6 main_v7 ((transpose S128x128 [1, 0] · transposes_S128x128_S128x128_1_0) : (⟨S128x128, .f32⟩ : BufTy).Contents (Elt F) → (⟨S128x128, .f32⟩ : BufTy).Contents (Elt F)),
    binary main_v6 main_v7 main_v8 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v9 (broadcastInDim S1x128 ![1] bcast_S128_S1x128_1 : (⟨S128, .f32⟩ : BufTy).Contents (Elt F) → (⟨S1x128, .f32⟩ : BufTy).Contents (Elt F)),
    unary main_v9 main_v10 (broadcastInDim S50000x128 ![0, 1] bcast_S1x128_S50000x128_0_1 : (⟨S1x128, .f32⟩ : BufTy).Contents (Elt F) → (⟨S50000x128, .f32⟩ : BufTy).Contents (Elt F)),
    binary main_v8 main_v10 main_v11 (addf : (⟨S50000x128, .f32⟩ : BufTy).Contents (Elt F) → (⟨S50000x128, .f32⟩ : BufTy).Contents (Elt F) → (⟨S50000x128, .f32⟩ : BufTy).Contents (Elt F)),
    unary main_arg8 main_v12 ((transpose S128x128 [1, 0] · transposes_S128x128_S128x128_1_0) : (⟨S128x128, .f32⟩ : BufTy).Contents (Elt F) → (⟨S128x128, .f32⟩ : BufTy).Contents (Elt F)),
    binary main_arg1 main_v12 main_v13 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg9 main_v14 (broadcastInDim S1x128 ![1] bcast_S128_S1x128_1 : (⟨S128, .f32⟩ : BufTy).Contents (Elt F) → (⟨S1x128, .f32⟩ : BufTy).Contents (Elt F)),
    unary main_v14 main_v15 (broadcastInDim S800000x128 ![0, 1] bcast_S1x128_S800000x128_0_1 : (⟨S1x128, .f32⟩ : BufTy).Contents (Elt F) → (⟨S800000x128, .f32⟩ : BufTy).Contents (Elt F)),
    binary main_v13 main_v15 main_v16 (addf : (⟨S800000x128, .f32⟩ : BufTy).Contents (Elt F) → (⟨S800000x128, .f32⟩ : BufTy).Contents (Elt F) → (⟨S800000x128, .f32⟩ : BufTy).Contents (Elt F)),
    TRef.nullary main_call2.cst (constant S_ .f32 0x00000000#32),
    TRef.unary main_call2.cst main_call2.v0 (broadcastInDim S800000x128 ![] bcast_S_S800000x128),
    TRef.binary (TRef.of main_v16 : TRef sig ⟨S800000x128, .f32⟩) main_call2.v0 main_call2.v1 maximumf,
    unary main_arg10 main_v18 ((transpose S128x128 [1, 0] · transposes_S128x128_S128x128_1_0) : (⟨S128x128, .f32⟩ : BufTy).Contents (Elt F) → (⟨S128x128, .f32⟩ : BufTy).Contents (Elt F)),
    binary main_v17 main_v18 main_v19 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg11 main_v20 (broadcastInDim S1x128 ![1] bcast_S128_S1x128_1 : (⟨S128, .f32⟩ : BufTy).Contents (Elt F) → (⟨S1x128, .f32⟩ : BufTy).Contents (Elt F)),
    unary main_v20 main_v21 (broadcastInDim S800000x128 ![0, 1] bcast_S1x128_S800000x128_0_1 : (⟨S1x128, .f32⟩ : BufTy).Contents (Elt F) → (⟨S800000x128, .f32⟩ : BufTy).Contents (Elt F)),
    binary main_v19 main_v21 main_v22 (addf : (⟨S800000x128, .f32⟩ : BufTy).Contents (Elt F) → (⟨S800000x128, .f32⟩ : BufTy).Contents (Elt F) → (⟨S800000x128, .f32⟩ : BufTy).Contents (Elt F)),
    unary main_arg12 main_v23 ((transpose S128x128 [1, 0] · transposes_S128x128_S128x128_1_0) : (⟨S128x128, .f32⟩ : BufTy).Contents (Elt F) → (⟨S128x128, .f32⟩ : BufTy).Contents (Elt F)),
    binary main_v22 main_v23 main_v24 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg13 main_v25 (broadcastInDim S1x128 ![1] bcast_S128_S1x128_1 : (⟨S128, .f32⟩ : BufTy).Contents (Elt F) → (⟨S1x128, .f32⟩ : BufTy).Contents (Elt F)),
    unary main_v25 main_v26 (broadcastInDim S800000x128 ![0, 1] bcast_S1x128_S800000x128_0_1 : (⟨S1x128, .f32⟩ : BufTy).Contents (Elt F) → (⟨S800000x128, .f32⟩ : BufTy).Contents (Elt F)),
    binary main_v24 main_v26 main_v27 (addf : (⟨S800000x128, .f32⟩ : BufTy).Contents (Elt F) → (⟨S800000x128, .f32⟩ : BufTy).Contents (Elt F) → (⟨S800000x128, .f32⟩ : BufTy).Contents (Elt F)),
    unary main_v27 main_v28 (Host.negf : (⟨S800000x128, .f32⟩ : BufTy).Contents (Elt F) → (⟨S800000x128, .f32⟩ : BufTy).Contents (Elt F)),
    unary main_v28 main_v29 (Host.exp : (⟨S800000x128, .f32⟩ : BufTy).Contents (Elt F) → (⟨S800000x128, .f32⟩ : BufTy).Contents (Elt F)),
    nullary main_cst_1 (constant S_ .f32 0x3F800000#32),
    unary main_cst_1 main_v30 (broadcastInDim S800000x128 ![] bcast_S_S800000x128 : (⟨S_, .f32⟩ : BufTy).Contents (Elt F) → (⟨S800000x128, .f32⟩ : BufTy).Contents (Elt F)),
    binary main_v30 main_v29 main_v31 (addf : (⟨S800000x128, .f32⟩ : BufTy).Contents (Elt F) → (⟨S800000x128, .f32⟩ : BufTy).Contents (Elt F) → (⟨S800000x128, .f32⟩ : BufTy).Contents (Elt F)),
    nullary main_cst_2 (constant S_ .f32 0x3F800000#32),
    unary main_cst_2 main_v32 (broadcastInDim S800000x128 ![] bcast_S_S800000x128 : (⟨S_, .f32⟩ : BufTy).Contents (Elt F) → (⟨S800000x128, .f32⟩ : BufTy).Contents (Elt F)),
    binary main_v32 main_v31 main_v33 (Host.divf : (⟨S800000x128, .f32⟩ : BufTy).Contents (Elt F) → (⟨S800000x128, .f32⟩ : BufTy).Contents (Elt F) → (⟨S800000x128, .f32⟩ : BufTy).Contents (Elt F)),
    unary main_arg14 main_v34 ((transpose S128x128 [1, 0] · transposes_S128x128_S128x128_1_0) : (⟨S128x128, .f32⟩ : BufTy).Contents (Elt F) → (⟨S128x128, .f32⟩ : BufTy).Contents (Elt F)),
    binary main_v22 main_v34 main_v35 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg15 main_v36 (broadcastInDim S1x128 ![1] bcast_S128_S1x128_1 : (⟨S128, .f32⟩ : BufTy).Contents (Elt F) → (⟨S1x128, .f32⟩ : BufTy).Contents (Elt F)),
    unary main_v36 main_v37 (broadcastInDim S800000x128 ![0, 1] bcast_S1x128_S800000x128_0_1 : (⟨S1x128, .f32⟩ : BufTy).Contents (Elt F) → (⟨S800000x128, .f32⟩ : BufTy).Contents (Elt F)),
    binary main_v35 main_v37 main_v38 (addf : (⟨S800000x128, .f32⟩ : BufTy).Contents (Elt F) → (⟨S800000x128, .f32⟩ : BufTy).Contents (Elt F) → (⟨S800000x128, .f32⟩ : BufTy).Contents (Elt F)),
    nullary main_c (constantI S_ 32 0#32),
    unary main_c main_v39 (broadcastInDim S800000 ![] bcast_S_S800000 : (⟨S_, .i32⟩ : BufTy).Contents (Elt F) → (⟨S800000, .i32⟩ : BufTy).Contents (Elt F)),
    binary main_arg2 main_v39 main_v40 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v41 (broadcastInDim S800000 ![] bcast_S_S800000 : (⟨S_, .i32⟩ : BufTy).Contents (Elt F) → (⟨S800000, .i32⟩ : BufTy).Contents (Elt F)),
    binary main_arg2 main_v41 main_v42 (addi : (⟨S800000, .i32⟩ : BufTy).Contents (Elt F) → (⟨S800000, .i32⟩ : BufTy).Contents (Elt F) → (⟨S800000, .i32⟩ : BufTy).Contents (Elt F)),
    ternary main_v40 main_v42 main_arg2 main_v43 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v43 main_v44 (broadcastInDim S800000x1 ![0] bcast_S800000_S800000x1_0 : (⟨S800000, .i32⟩ : BufTy).Contents (Elt F) → (⟨S800000x1, .i32⟩ : BufTy).Contents (Elt F)),
    binary main_v11 main_v44 main_v45 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v33 main_v45 main_v46 (mulf : (⟨S800000x128, .f32⟩ : BufTy).Contents (Elt F) → (⟨S800000x128, .f32⟩ : BufTy).Contents (Elt F) → (⟨S800000x128, .f32⟩ : BufTy).Contents (Elt F)),
    binary main_v46 main_v38 main_v47 (addf : (⟨S800000x128, .f32⟩ : BufTy).Contents (Elt F) → (⟨S800000x128, .f32⟩ : BufTy).Contents (Elt F) → (⟨S800000x128, .f32⟩ : BufTy).Contents (Elt F)),
    nullary main_cst_4 (constant S_ .f32 0x00000000#32),
    unary main_cst_4 main_v48 (broadcastInDim S50000x128 ![] bcast_S_S50000x128 : (⟨S_, .f32⟩ : BufTy).Contents (Elt F) → (⟨S50000x128, .f32⟩ : BufTy).Contents (Elt F)),
    unary main_arg3 main_v49 (broadcastInDim S800000x1 ![0] bcast_S800000_S800000x1_0 : (⟨S800000, .i32⟩ : BufTy).Contents (Elt F) → (⟨S800000x1, .i32⟩ : BufTy).Contents (Elt F)),
    ternary main_v48 main_v49 main_v47 main_v50 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

-- seventy-two sequencing steps: the unfolding recurses once per statement
set_option maxRecDepth 8192 in
/-- The entry function is that straight line: each callee's definition unfolds at its call over the call's buffers,
    and sequencing a callee's chain before the rest of the caller's is, by computation, the one chain of the same
    steps. -/
theorem main_eq (c : Dev nD) : main (F := F) c = seq ops := rfl

/-- No buffer of the program is scoped. -/
theorem scopedRefs_eq : (Finset.univ.filter fun b : Ref sig .tc => b.isScoped) = ∅ := by decide
/-- No semaphore of the program is scoped. -/
theorem scopedSems_eq : (Finset.univ.filter fun sm : SemLoc sig => sm.isScoped .tc) = ∅ := by decide

set_option maxRecDepth 8192 in
/-- Every operation reads and writes buffers of the device only. -/
theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., unary_bufs_sub .., ternary_bufs_sub ..⟩

attribute [local irreducible] Host.gather Host.scatterAdd transpose in
set_option maxRecDepth 8192 in
set_option maxHeartbeats 28800000 in
/-- On every device, for any float values, from any memory with zero counters: every weakly fair execution of the
    program terminates with the result buffer at `RefTerm.out` of the arguments' launch contents and the sixteen
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50) = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v50).trans (by
        unfold RefTerm.out RefTerm.tail RefTerm.vp RefTerm.scale RefTerm.hid RefTerm.linN RefTerm.linE RefTerm.lrelu
        after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl)⟩)
    (run_seq scopedRefs_eq scopedSems_eq defs main (fun _ => ops) main_eq (fun _ => ops_sub) m ρ)

end Cert.ReferenceIdeal.RefRun

end
-- ==== Proof.lean ====
/-
  The certificate of the node-pooling / edge-gating message-passing layer: the kernel program (two pipelined regions —
  a two-layer node network over blocks of 5000 node rows, a two-layer edge network with a gate and a shift over blocks
  of 5000 edge rows — followed by a host stretch that gathers the pooled source rows, gates and shifts them, and
  accumulates the messages into their target rows) against the plain reference, over the extended reals.
  The three frames: both kernel programs' are the regions' pipelines run to the end with the arguments read back
  unchanged; the reference's is its run with the result dropped. The idealization rewrote nothing, so `preserves` is
  trivial. For `algebraic`: every intermediate array of either program is, entry by entry, a function of ONE row of
  its input (the row formulas of `RowMath`), so the kernel's blocks of rows assemble to the arrays the reference
  computes whole; the gate `1 / (1 + exp (-x))` is the logistic function by definition; a change of float format is
  the identity; a product accumulated into zero is the product; and the last stretch is the same in both programs.
  No finiteness of the inputs is used.
-/
import proofs.«163483_j52123723105092_1_alg».proof.Defs
import proofs.«163483_j52123723105092_1_alg».proof.Proof.Gen.Kernel
import proofs.«163483_j52123723105092_1_alg».proof.Proof.Gen.Kernel.Frame
import proofs.«163483_j52123723105092_1_alg».proof.Proof.Gen.KernelIdeal
import proofs.«163483_j52123723105092_1_alg».proof.Proof.Gen.KernelIdeal.Frame
import proofs.«163483_j52123723105092_1_alg».proof.Proof.Gen.ReferenceIdeal
import proofs.«163483_j52123723105092_1_alg».proof.Proof.Gen.Pre_finite_inputs
import proofs.«163483_j52123723105092_1_alg».proof.Proof.Bridge
import proofs.«163483_j52123723105092_1_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- Both programs, from memories agreeing on the arguments, end with `spec` of the arguments in their result. -/
theorem algebraic : Cert.algebraic_KernelIdeal_ReferenceIdeal := by
  intro m ρ m' ρ' _ hagree
  refine ⟨fun c => Cert.Bridge.spec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨((h c).1).trans (Cert.Bridge.kernel_out m ρ c), (h c).2⟩)
      (Cert.KernelIdeal.KerRun.run_values (F := Ideal) m ρ)
  · refine (θ_run Cert.ReferenceIdeal.defs _ _).mono (fun r h c => ⟨((h c).1).trans ?_, (h c).2⟩)
      (Cert.ReferenceIdeal.RefRun.run (F := Ideal) m' ρ')
    obtain ⟨h0, h1, h2, h3, h4, h5, h6, h7, h8, h9, h10, h11, h12, h13, h14, h15⟩ := hagree c
    rw [h0, h1, h2, h3, h4, h5, h6, h7, h8, h9, h10, h11, h12, h13, h14, h15]
    exact Cert.Bridge.ref_out _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
